-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32768x1024 : Shape := ⟨2, ![32768, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32768x1024, .f32⟩
  | .hbm, ⟨3, _⟩ => ⟨S32768x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32x1x1024x1024_S32768x1024 : S32x1x1024x1024.ShapeCasts S32768x1024
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S0 : Shape := ⟨1, ![0]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S0, .i32⟩
  | .hbm, ⟨3, _⟩ => ⟨S32x1x1024x1024, .i1⟩
  | .hbm, ⟨4, _⟩ => ⟨S32x1x1024x1024, .f32⟩
  | .hbm, ⟨5, _⟩ => ⟨S_, .f32⟩
  | .hbm, ⟨6, _⟩ => ⟨S32x1x1024x1024, .f32⟩
  | .hbm, ⟨7, _⟩ => ⟨S32x1x1024x1024, .f32⟩
  | .hbm, ⟨8, _⟩ => ⟨S_, .f32⟩
  | .hbm, ⟨9, _⟩ => ⟨S32x1x1024x1024, .f32⟩
  | .hbm, ⟨10, _⟩ => ⟨S32x1x1024x1024, .f32⟩
  | .hbm, ⟨11, _⟩ => ⟨S32x1x1024x1024, .f32⟩
  | .hbm, ⟨12, _⟩ => ⟨S32x1x1024x1024, .f32⟩
  | .hbm, ⟨13, _⟩ => ⟨S32x1x1024x1024, .f32⟩
  | .hbm, ⟨14, _⟩ => ⟨S32x1x1024x1024, .f32⟩
  | .hbm, ⟨15, _⟩ => ⟨S32x1x1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  hz_S0 : S0.numel = 0
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel
  scatter_S32x1x1024x1024_S0_S32x1x1024x1024_0123_n_n_0_wf : ScatterDims.WF S32x1x1024x1024 S0 S32x1x1024x1024 [0, 1, 2, 3] [] [] 0

variable [Facts₀]

def scatter_S32x1x1024x1024_S0_S32x1x1024x1024_0123_n_n_0 : ScatterDims S32x1x1024x1024 S0 S32x1x1024x1024 where
  updateWindowDims := [0, 1, 2, 3]
  insertedWindowDims := []
  scatterDimsToOperandDims := []
  indexVectorDim := 0
  wf := scatter_S32x1x1024x1024_S0_S32x1x1024x1024_0123_n_n_0_wf

class Facts : Prop extends Facts₀ where

variable [Facts]
-- ==== Proof.Pieces.lean ====
/-
  What each control case of the body leaves in the output block's staging buffer, as a value.
  At the first grid point the body first stores the zero block, reads it back, and stores
  `zero + (this point's block sum)`; at every other point it reads what the point before left and stores
  `previous + (this point's block sum)`. Either way the buffer ends at the body's one accumulate-store's
  payload, of the two input blocks and of the accumulator the case starts from.
-/
import proofs.«175476_j13529146982643_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F]

/-- The zero offsets of a whole-buffer access. -/
theorem hz : (![0, 0] : Fin 2 → Nat) = fun _ => 0 := funext fun a => by fin_cases a <;> rfl

/-- Every point but the first: the buffer, found holding `xo`, ends at the accumulate-store's payload over `xo`. -/
theorem out_B (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : ¬cond0_0 i) (x0 x1 : Vec F S512x1024 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S512x1024) hz,
    View.ld_unit_zero (S := S1x1) hz]

/-- The first point: the buffer ends at the accumulate-store's payload over the zero block the reset stored. -/
theorem out_A (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (hc : cond0_0 i) (x0 x1 : Vec F S512x1024 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz,
    View.ld_unit_zero (S := S1x1) hz]

end Cert.KernelIdeal.CaseValue

end
-- ==== Proof.AsymSpec.lean ====
/-
  One element of the asymmetric weighted L1 sum, on the extended reals, in the two arrangements the two
  programs compute it in, and the law that joins them on finite arguments.

  The kernel takes the weight by a choice: the heavy weight `0x3F333333` (= 11744051 / 2^24) where `a < b`, the
  light weight `0x3E99999A` (= 10066330 / 2^25) elsewhere, and multiplies it with `|a - b|`.
  The reference takes the weight as `|light - m|` with `m` the comparison read as 0 or 1, scales `a` and `b`
  by it separately and takes `|w a - w b|`.
  The heavy weight IS `1 - light` exactly (both are dyadic: 1 - 10066330 / 2^25 = 23488102 / 2^25 = 11744051 / 2^24),
  so the two weights agree; and for a weight `w ≥ 0` and REAL `a`, `b`, `|w a - w b| = w |a - b|`
  (distributivity, which the extended reals lack at the infinities: this is where finiteness is used).
-/
import Idealize.ShloMosaic.PureOps.Ideal
import Idealize.ShloMosaic.PureOps.Ideal.Laws

noncomputable section

namespace Cert.AsymSpec

open Idealize.ShloMosaic

/-- The light weight's pattern denotes 10066330 / 2^25. -/
theorem light_val : Ideal.ofBits .f32 0x3E99999A#32 = ((10066330 / 33554432 : ℝ) : EReal) := by
  simp [Ideal.ofBits, Ideal.ieee, -EReal.coe_mul]; norm_num

/-- The heavy weight's pattern denotes 11744051 / 2^24. -/
theorem heavy_val : Ideal.ofBits .f32 0x3F333333#32 = ((11744051 / 16777216 : ℝ) : EReal) := by
  simp [Ideal.ofBits, Ideal.ieee, -EReal.coe_mul]; norm_num

/-- The kernel's element: the chosen weight times `|a - b|` (the absolute value as `max x (-x)`). -/
def term (a b : EReal) : EReal :=
  (if Ideal.cmp .olt a b = 1#1 then Ideal.ofBits .f32 0x3F333333#32 else Ideal.ofBits .f32 0x3E99999A#32)
    * max (a - b) (-(a - b))

/-- The reference's weight: `|light - m|`, `m` the comparison's bit read as a number. -/
def refWeight (a b : EReal) : EReal :=
  max (Ideal.ofBits .f32 0x3E99999A#32 - (((Ideal.cmp .olt a b).toNat : ℝ) : EReal))
    (-(Ideal.ofBits .f32 0x3E99999A#32 - (((Ideal.cmp .olt a b).toNat : ℝ) : EReal)))

/-- The reference's element: `|w a - w b|`. -/
def refTerm (a b : EReal) : EReal :=
  max (refWeight a b * a - refWeight a b * b) (-(refWeight a b * a - refWeight a b * b))

/-- `max x (-x)` of a real is its absolute value. -/
theorem max_neg_coe (r : ℝ) : max (r : EReal) (-(r : EReal)) = ((|r| : ℝ) : EReal) := by
  rw [← EReal.coe_neg, ← EReal.coe_strictMono.monotone.map_max, abs_eq_max_neg]

/-- A nonnegative factor comes out of an absolute difference of reals. -/
theorem abs_scaled_sub (w a b : ℝ) (hw : 0 ≤ w) : |w * a - w * b| = w * |a - b| := by
  rw [← mul_sub, abs_mul, abs_of_nonneg hw]

/-- The comparison's bit on two reals. -/
theorem cmp_lt (a b : ℝ) (h : a < b) : Ideal.cmp .olt (a : EReal) (b : EReal) = 1#1 := by
  simp [Ideal.cmp, h]
theorem cmp_not_lt (a b : ℝ) (h : ¬ a < b) : Ideal.cmp .olt (a : EReal) (b : EReal) = 0#1 := by
  simp [Ideal.cmp, h]

/-- THE LAW: on real arguments the reference's element is the kernel's. -/
theorem refTerm_eq_term (a b : ℝ) : refTerm (a : EReal) (b : EReal) = term (a : EReal) (b : EReal) := by
  unfold refTerm refWeight term
  rw [light_val, heavy_val]
  by_cases h : a < b
  · rw [cmp_lt a b h, if_pos rfl]
    have e1 : (((1#1 : BitVec 1).toNat : ℝ) : EReal) = ((1 : ℝ) : EReal) := by norm_num
    rw [e1, ← EReal.coe_sub, max_neg_coe, ← EReal.coe_mul, ← EReal.coe_mul, ← EReal.coe_sub, max_neg_coe,
      ← EReal.coe_sub, max_neg_coe, ← EReal.coe_mul, abs_scaled_sub _ a b (abs_nonneg _)]
    congr 2
    norm_num [abs_of_neg]
  · rw [cmp_not_lt a b h, if_neg (by decide)]
    have e0 : (((0#1 : BitVec 1).toNat : ℝ) : EReal) = ((0 : ℝ) : EReal) := by norm_num
    rw [e0, ← EReal.coe_sub, max_neg_coe, ← EReal.coe_mul, ← EReal.coe_mul, ← EReal.coe_sub, max_neg_coe,
      ← EReal.coe_sub, max_neg_coe, ← EReal.coe_mul, abs_scaled_sub _ a b (abs_nonneg _)]
    congr 2
    norm_num [abs_of_pos]

end Cert.AsymSpec

end
-- ==== Proof.BlockSum.lean ====
/-
  What one grid point adds to the running total. The body's one store writes, into the [1, 1] output block,
  the block's previous contents plus the sum over the 512 rows of the sums over the 1024 lanes of
  `weight * |x - y|`: the lane sums are a reduction along axis 1, kept as a column [512] → [512, 1], the
  column is reduced along axis 0 to [1] and recast to [1, 1]. Read at the ideal values each reduction is the
  plain sum over its axis, so the stored value is `previous + ∑ rows ∑ lanes term (x) (y)`.
-/
import proofs.«175476_j13529146982643_1_alg».proof.Proof.Gen.KernelIdeal.Skeleton
import proofs.«175476_j13529146982643_1_alg».proof.Proof.AsymSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open Cert.AsymSpec (term)

/-- A vector [a] recast as a column [a, 1] reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of one pair of blocks: over rows and lanes, the weighted absolute difference. -/
def blockSum (x y : Vec Ideal S512x1024 .f32) : EReal :=
  ∑ r : Fin 512, ∑ l : Fin 1024, term (x (ix2 r l)) (y (ix2 r l))

/-- The lane reduction at row `r`: the sum over the 1024 lanes. -/
theorem rowSum_apply (w : FVec Ideal S512x1024 .f32) (h : S512x1024.Reduces [1] S512) (hφ : FKind.Formats .f32)
    (hacc : (0x00000000#32 : BitVec 32) = FKind.add.neutral .f32 hφ) (r : Fin 512) :
    multiReduction .add [1] S512 w 0x00000000#32 h hφ hacc (ix1 r) = ∑ l : Fin 1024, w (ix2 r l) :=
  (Ideal.multiReduction_add_single w _ h hφ hacc (ix1 r)).trans
    (Finset.sum_congr rfl fun l _ => congrArg w (funext fun a => match a with | ⟨0, _⟩ => rfl | ⟨1, _⟩ => rfl))

/-- The row reduction of the column of lane sums: the sum over the 512 rows. -/
theorem colSum_apply (v : FVec Ideal S512 .f32) (hc : S512.ShapeCasts S512x1) (h : S512x1.Reduces [0] S1)
    (hφ : FKind.Formats .f32) (hacc : (0x00000000#32 : BitVec 32) = FKind.add.neutral .f32 hφ) (i : Fin 1) :
    multiReduction .add [0] S1 (shapeCast S512x1 v hc) 0x00000000#32 h hφ hacc (ix1 i) = ∑ r : Fin 512, v (ix1 r) :=
  (Ideal.multiReduction_add_single (shapeCast S512x1 v hc) _ h hφ hacc (ix1 i)).trans
    (Finset.sum_congr rfl fun r _ =>
      (congrArg (shapeCast S512x1 v hc) (funext fun a => match a with | ⟨0, _⟩ => rfl | ⟨1, _⟩ => rfl)).trans
        (shapeCast_a_a1_apply v hc r i))

/-- One element of the product array the body reduces: the chosen weight times `|x - y|`. -/
theorem elem_apply (X Y : FVec Ideal S512x1024 .f32) (j : S512x1024.Idx) :
    mulf (select (cmpf .olt X Y) (broadcast S512x1024 (Scalar.ofBits .f32 0x3F333333#32))
      (broadcast S512x1024 (Scalar.ofBits .f32 0x3E99999A#32))) (absf (subf X Y)) j = term (X j) (Y j) := rfl

/-- THE PAYLOAD: the value the body stores is the block's previous contents plus the block pair's sum. -/
theorem pay2_apply (x y : Vec Ideal S512x1024 .f32) (acc : Vec Ideal S1x1 .f32) (j : S1x1.Idx) :
    k0_pay2 (F := Ideal) x y acc j = acc j + blockSum x y := by
  obtain ⟨u, i, rfl⟩ : ∃ (u : Fin 1) (i : Fin 1), j = ix2 u i := ⟨j 0, j 1, eq_ix2 j⟩
  unfold k0_pay2
  refine (addf_apply _ _ _).trans ?_
  refine congrArg₂ (· + ·) (congrFun (shapeCast_self acc _) _) ?_
  refine (shapeCast_a_1a_apply _ _ u i).trans ?_
  refine (colSum_apply _ _ _ _ _ i).trans ?_
  refine Finset.sum_congr rfl fun r _ => ?_
  refine (rowSum_apply _ _ _ _ r).trans ?_
  refine Finset.sum_congr rfl fun l _ => ?_
  refine (elem_apply _ _ _).trans ?_
  exact congrArg₂ term (congrFun (shapeCast_self x _) _) (congrFun (shapeCast_self y _) _)

end Cert.KernelIdeal.BlockValue

end
-- ==== Proof.Accum.lean ====
/-
  The running total across the grid. The output block's index never moves, so its staging buffer is carried
  from point to point and written back after the last one only. After point `n` it holds, at its one
  position, the sum of the block sums of points `0 … n`: the first point starts from the zero it stores,
  every later point from what the point before left (induction on the point, never an enumeration of the
  grid). After the last point that is the sum over all 64 points.
-/
import proofs.«175476_j13529146982643_1_alg».proof.Proof.Pieces
import proofs.«175476_j13529146982643_1_alg».proof.Proof.BlockSum

noncomputable section

namespace Cert.KernelIdeal.AccValue

open Cert.KernelIdeal Cert.KernelIdeal.Gen Idealize.ShloMosaic Idealize.ShloMosaic.TcCoe Idealize.SL.Sem
open Cert.KernelIdeal.BlockValue Cert.KernelIdeal.CaseValue

variable (m : (ℓ : Loc nD τ sig) → Buf (Elt Ideal) ℓ)

/-- The block sum of grid point `t`: of the two input windows' blocks there. -/
def pointSum (c : Dev nD) (t : Fin cfg0.N) : EReal :=
  blockSum (iblk m c 0 t : Vec Ideal S512x1024 .f32) (iblk m c 1 t : Vec Ideal S512x1024 .f32)

/-- The same by the point's number, zero past the grid. -/
def pointSumN (c : Dev nD) (k : ℕ) : EReal := if h : k < cfg0.N then pointSum m c ⟨k, h⟩ else 0

theorem pointSumN_of_lt (c : Dev nD) (k : ℕ) (h : k < cfg0.N) : pointSumN m c k = pointSum m c ⟨k, h⟩ := dif_pos h

/-- After point `n` the output block's staging buffer holds the sum of the block sums of points `0 … n`. -/
theorem outsAt_eq (c : Dev nD) : ∀ (n : ℕ) (h : n < cfg0.N),
    outsAt0 m c n h = fun _ => ∑ k ∈ Finset.range (n + 1), pointSumN m c k
  | 0, h => by
    refine (outsAt0_A m c ⟨0, h⟩ rfl).trans ?_
    refine (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) _ (iblk m c 0 ⟨0, h⟩) (iblk m c 1 ⟨0, h⟩)).trans ?_
    funext j
    refine (pay2_apply (iblk m c 0 ⟨0, h⟩) (iblk m c 1 ⟨0, h⟩) (k0_pay1 (F := Ideal)) j).trans ?_
    show Ideal.ofBits .f32 0x00000000#32 + pointSum m c ⟨0, h⟩ = _
    rw [Ideal.ofBits_zero_f32, zero_add, Finset.sum_range_one, pointSumN_of_lt m c 0 h]
  | n + 1, h => by
    have hN : cfg0.N = 64 := N_0
    have hB : ¬(⟨n + 1, h⟩ : Fin cfg0.N).val % 64 = 0 := by dsimp only; omega
    refine (outsAt0_B m c ⟨n + 1, h⟩ hB).trans ?_
    refine (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) _ (iblk m c 0 ⟨n + 1, h⟩) (iblk m c 1 ⟨n + 1, h⟩) _).trans ?_
    funext j
    refine (pay2_apply (iblk m c 0 ⟨n + 1, h⟩) (iblk m c 1 ⟨n + 1, h⟩) _ j).trans ?_
    show outsAt0 m c n (Nat.lt_of_succ_lt h) j + pointSum m c ⟨n + 1, h⟩ = _
    rw [outsAt_eq c n (Nat.lt_of_succ_lt h), Finset.sum_range_succ _ (n + 1), pointSumN_of_lt m c (n + 1) h]

/-- After the last point: the sum over all the grid's points. -/
theorem outsAt_last (c : Dev nD) (h : 63 < cfg0.N) :
    outsAt0 m c 63 h = fun _ => ∑ t : Fin 64, pointSum m c (t.cast N_0.symm) := by
  rw [outsAt_eq m c 63 h]
  funext _
  rw [← Fin.sum_univ_eq_sum_range (fun k => pointSumN m c k) 64]
  refine Finset.sum_congr rfl fun t _ => ?_
  exact pointSumN_of_lt m c t.val (lt_of_lt_of_eq t.isLt N_0.symm)

end Cert.KernelIdeal.AccValue

end
-- ==== Proof.SumIdx.lean ====
/-
  The 2^25 positions of a [32, 1, 1024, 1024] array, counted block by block: the array reshaped to
  [32768, 1024] is cut into 64 blocks of 512 rows; row `512 t + r` of the reshaped array is row
  `(t mod 2) * 512 + r` of image `t / 2` (an image has 1024 = 2 * 512 rows). Summing a function over
  (block, row in the block, lane) is summing it over all positions: the map is a bijection.
-/
import Idealize.ShloMosaic.Lib.ValueIdx

noncomputable section

namespace Cert.SumIdx

open Idealize.ShloMosaic Idealize.ShloMosaic.ValueIdx

/-- The positions of the argument arrays. -/
abbrev Pos : Type := (⟨4, ![32, 1, 1024, 1024]⟩ : Shape).Idx

/-- Position of lane `l` of row `r` of block `t`. -/
def pos (t : Fin 64) (r : Fin 512) (l : Fin 1024) : Pos :=
  ix4 (⟨t.val / 2, by omega⟩ : Fin 32) (0 : Fin 1) (⟨(t.val % 2) * 512 + r.val, by omega⟩ : Fin 1024) l

theorem pos_val0 (t : Fin 64) (r : Fin 512) (l : Fin 1024) : (pos t r l 0).val = t.val / 2 := rfl
theorem pos_val1 (t : Fin 64) (r : Fin 512) (l : Fin 1024) : (pos t r l 1).val = 0 := rfl
theorem pos_val2 (t : Fin 64) (r : Fin 512) (l : Fin 1024) : (pos t r l 2).val = (t.val % 2) * 512 + r.val := rfl
theorem pos_val3 (t : Fin 64) (r : Fin 512) (l : Fin 1024) : (pos t r l 3).val = l.val := rfl

/-- Block, row and lane of a position, and back. -/
def posEquiv : Fin 64 × Fin 512 × Fin 1024 ≃ Pos where
  toFun p := pos p.1 p.2.1 p.2.2
  invFun j :=
    have h0 : (j 0).val < 32 := (j 0).isLt
    have h2 : (j 2).val < 1024 := (j 2).isLt
    (⟨2 * (j 0).val + (j 2).val / 512, by omega⟩, ⟨(j 2).val % 512, by omega⟩, j 3)
  left_inv p := by
    obtain ⟨t, r, l⟩ := p
    refine Prod.ext (Fin.ext ?_) (Prod.ext (Fin.ext ?_) rfl)
    · show 2 * (t.val / 2) + ((t.val % 2) * 512 + r.val) / 512 = t.val
      omega
    · show ((t.val % 2) * 512 + r.val) % 512 = r.val
      omega
  right_inv j := by
    have h0 : (j 0).val < 32 := (j 0).isLt
    have h1 : (j 1).val < 1 := (j 1).isLt
    have h2 : (j 2).val < 1024 := (j 2).isLt
    funext a
    apply Fin.ext
    match a with
    | ⟨0, _⟩ => show (2 * (j 0).val + (j 2).val / 512) / 2 = (j 0).val; omega
    | ⟨1, _⟩ => show 0 = (j 1).val; omega
    | ⟨2, _⟩ => show ((2 * (j 0).val + (j 2).val / 512) % 2) * 512 + (j 2).val % 512 = (j 2).val; omega
    | ⟨3, _⟩ => rfl

/-- Summing block by block, row by row, lane by lane is summing over all positions. -/
theorem sum_blocks {M : Type*} [AddCommMonoid M] (f : Pos → M) :
    ∑ t : Fin 64, ∑ r : Fin 512, ∑ l : Fin 1024, f (pos t r l) = ∑ j : Pos, f j := by
  rw [← Fintype.sum_equiv posEquiv (fun p => f (pos p.1 p.2.1 p.2.2)) f (fun _ => rfl), Fintype.sum_prod_type]
  refine Finset.sum_congr rfl fun t _ => ?_
  rw [Fintype.sum_prod_type]

end Cert.SumIdx

end
-- ==== Proof.BlockRead.lean ====
/-
  What the kernel's two input windows read. Each window's array is an argument reshaped from
  [32, 1, 1024, 1024] to [32768, 1024] by the host before the call (same row-major position), and the block of
  grid point `t` is rows `512 t … 512 t + 511`, all 1024 lanes. So lane `l` of row `r` of the block at `t` is
  the argument at image `t / 2`, channel 0, row `(t mod 2) * 512 + r`, lane `l`.
-/
import proofs.«175476_j13529146982643_1_alg».proof.Proof.Gen.KernelIdeal.Frame
import proofs.«175476_j13529146982643_1_alg».proof.Proof.SumIdx
import Idealize.ShloMosaic.Lib.Pipeline.Value
import Idealize.ShloMosaic.Lib.StableHlo.Run
import Idealize.ShloMosaic.Lib.ValueIdx

noncomputable section

namespace Cert.KernelIdeal.BlockRead

open Cert.KernelIdeal Cert.KernelIdeal.Gen Idealize.ShloMosaic Idealize.ShloMosaic.TcCoe Idealize.SL.Sem
open Idealize.ShloMosaic.ValueIdx Cert.SumIdx

variable {F : FTy → Type} [FloatOps F]
variable (m : (ℓ : Loc nD τ sig) → Buf (Elt F) ℓ)

/-- Window 0's array, as the region finds it: the first argument reshaped. -/
theorem V_main_v0 (c : Dev nD) : (V m c main_v0 : S32768x1024.Idx → F .f32)
    = shapeCast S32768x1024 (m ((c : Thread nD τ).loc main_arg0)) shapeCasts_S32x1x1024x1024_S32768x1024 := by
  show StableHlo.after hostOps0 (fun b => m (c, b)) (Proc.devRef .tc main_v0) = _
  after_results
  rfl

/-- Window 1's array, as the region finds it: the second argument reshaped. -/
theorem V_main_v1 (c : Dev nD) : (V m c main_v1 : S32768x1024.Idx → F .f32)
    = shapeCast S32768x1024 (m ((c : Thread nD τ).loc main_arg1)) shapeCasts_S32x1x1024x1024_S32768x1024 := by
  show StableHlo.after hostOps0 (fun b => m (c, b)) (Proc.devRef .tc main_v1) = _
  after_results
  rfl

/-- Both input windows' block index at point `t` is `(t, 0)` — decided over the grid. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- The reshaped array at row `512 t + r`, lane `l`, is the argument at the block position's place. -/
theorem reshaped_apply (x : S32x1x1024x1024.Idx → F .f32) (t : Fin 64) (r : Fin 512) (l : Fin 1024)
    (j : S32768x1024.Idx) (h0 : (j 0).val = t.val * 512 + r.val) (h1 : (j 1).val = l.val) :
    shapeCast S32768x1024 x shapeCasts_S32x1x1024x1024_S32768x1024 j = x (pos t r l) :=
  shapeCast_apply x _ j (pos t r l) (by
    rw [Shape.rowMajor_val_two, Shape.rowMajor_val_four, pos_val0, pos_val1, pos_val2, pos_val3, h0, h1]
    show ((t.val / 2 * 1 + 0) * 1024 + (t.val % 2 * 512 + r.val)) * 1024 + l.val = (t.val * 512 + r.val) * 1024 + l.val
    omega)

/-- Window 0's block at point `t`, read at `(r, l)`. -/
theorem iblk0_apply (c : Dev nD) (t : Fin cfg0.N) (r : Fin 512) (l : Fin 1024) :
    (iblk m c 0 t : Vec F S512x1024 .f32) (ix2 r l) = m ((c : Thread nD τ).loc main_arg0) (pos (t.cast N_0) r l) := by
  unfold iblk
  rw [View.read_apply]
  show V m c main_v0 _ = _
  refine (congrFun (V_main_v0 m c) _).trans ?_
  refine reshaped_apply _ (t.cast N_0) r l _ ?_ ?_
  · show win0_0.index t 0 * 512 + 1 * r.val = t.val * 512 + r.val
    rw [(index0 t).1]; omega
  · show win0_0.index t 1 * 1024 + 1 * l.val = l.val
    rw [(index0 t).2]; omega

/-- Window 1's block at point `t`, read at `(r, l)`. -/
theorem iblk1_apply (c : Dev nD) (t : Fin cfg0.N) (r : Fin 512) (l : Fin 1024) :
    (iblk m c 1 t : Vec F S512x1024 .f32) (ix2 r l) = m ((c : Thread nD τ).loc main_arg1) (pos (t.cast N_0) r l) := by
  unfold iblk
  rw [View.read_apply]
  show V m c main_v1 _ = _
  refine (congrFun (V_main_v1 m c) _).trans ?_
  refine reshaped_apply _ (t.cast N_0) r l _ ?_ ?_
  · show win0_1.index t 0 * 512 + 1 * r.val = t.val * 512 + r.val
    rw [(index1 t).1]; omega
  · show win0_1.index t 1 * 1024 + 1 * l.val = l.val
    rw [(index1 t).2]; omega

end Cert.KernelIdeal.BlockRead

end
-- ==== Proof.MeanSpec.lean ====
/-
  The result both programs are shown to compute, as ONE function of the two argument arrays: the sum over all
  2^25 positions of `weight * |x - y|`, divided by the element count 2^25 (the pattern `0x4C000000`), a
  rank-0 array.
-/
import proofs.«175476_j13529146982643_1_alg».proof.Proof.AsymSpec
import proofs.«175476_j13529146982643_1_alg».proof.Proof.SumIdx

noncomputable section

namespace Cert.MeanSpec

open Idealize.ShloMosaic Cert.AsymSpec Cert.SumIdx

/-- The weighted absolute differences summed over every position. -/
def total (x y : Pos → EReal) : EReal := ∑ j : Pos, term (x j) (y j)

/-- The asymmetric weighted L1 mean. -/
def mean (x y : Pos → EReal) : (⟨0, ![]⟩ : Shape).Idx → EReal :=
  fun _ => Ideal.div (total x y) (Ideal.ofBits .f32 0x4C000000#32)

end Cert.MeanSpec

end
-- ==== Proof.KernelValue.lean ====
/-
  The kernel's result. Each grid point's block sum, read through the two input windows, is the sum of the
  per-element terms over the positions of that block; the blocks partition the positions, so after the last
  point the carried [1, 1] output block holds the total over all 2^25 positions. That point is the only one
  that writes the block back, and the block is the whole [1, 1] result array. The host then recasts the
  array to rank 0 and divides by the element count: the specification's mean.
-/
import proofs.«175476_j13529146982643_1_alg».proof.Proof.Accum
import proofs.«175476_j13529146982643_1_alg».proof.Proof.BlockRead
import proofs.«175476_j13529146982643_1_alg».proof.Proof.MeanSpec
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.BlockValue Cert.KernelIdeal.AccValue Cert.KernelIdeal.BlockRead
open Cert.AsymSpec Cert.SumIdx Cert.MeanSpec

variable (m : (ℓ : Loc nD τ sig) → Buf (Elt Ideal) ℓ) (ρ : Dev nD → PrngReg)

/-- A grid point's block sum is the sum of the terms over the block's positions in the arguments. -/
theorem pointSum_eq (c : Dev nD) (t : Fin cfg0.N) :
    pointSum m c t = ∑ r : Fin 512, ∑ l : Fin 1024,
      term (m ((c : Thread nD τ).loc main_arg0) (pos (t.cast N_0) r l)) (m ((c : Thread nD τ).loc main_arg1) (pos (t.cast N_0) r l)) := by
  unfold pointSum blockSum
  exact Finset.sum_congr rfl fun r _ => Finset.sum_congr rfl fun l _ =>
    congrArg₂ term (iblk0_apply m c t r l) (iblk1_apply m c t r l)

/-- All the points' block sums together: the total over every position. -/
theorem sum_points (c : Dev nD) :
    ∑ t : Fin 64, pointSum m c (t.cast N_0.symm)
      = total (m ((c : Thread nD τ).loc main_arg0)) (m ((c : Thread nD τ).loc main_arg1)) := by
  unfold total
  rw [← sum_blocks (fun j => term (m ((c : Thread nD τ).loc main_arg0) j) (m ((c : Thread nD τ).loc main_arg1) j))]
  refine Finset.sum_congr rfl fun t _ => ?_
  rw [pointSum_eq]
  have e : (t.cast N_0.symm).cast N_0 = t := Fin.ext rfl
  rw [e]

/-- The [1, 1] result array the region leaves: the total at its one position. -/
def resultBlock (c : Dev nD) : Buf (Elt Ideal) ((c : Thread nD τ).loc main_v2) :=
  fun _ => total (m ((c : Thread nD τ).loc main_arg0)) (m ((c : Thread nD τ).loc main_arg1))

/-- The output window's block index is (0, 0) and its block is 1 × 1 at every point — decided over the grid. -/
theorem out_block : ∀ t : Fin cfg0.N, (win0_2.index t 0 = 0 ∧ win0_2.index t 1 = 0)
      ∧ (win0_2.xsize (grid0.coords t) 0 = 1 ∧ win0_2.xsize (grid0.coords t) 1 = 1) :=
  (by decide +kernel : ∀ t : Fin grid0.N, (win0_2.index t 0 = 0 ∧ win0_2.index t 1 = 0)
      ∧ (win0_2.xsize (grid0.coords t) 0 = 1 ∧ win0_2.xsize (grid0.coords t) 1 = 1))

/-- The last grid point. -/
abbrev tLast : Fin cfg0.N := ⟨63, lt_of_lt_of_eq (by decide : 63 < 64) N_0.symm⟩

/-- The one write-back, after the last point, writes the total. -/
theorem flushed_eq (c : Dev nD) (t : Fin cfg0.N) (hf : (cfg0.win 2).flush t = true) :
    (dats m 0 c).flushed 2 t = ((cfg0.win 2).blk t).view.read (Elt Ideal) (resultBlock m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, outsAt_last m c tLast.isLt, sum_points]
  rfl

/-- So the result array ends holding the total: the last point's block covers it. -/
theorem final2 (c : Dev nD) : (dats m 0 c).arrAt 2 cfg0.N = resultBlock m c :=
  (dats m 0 c).arrAt_eq_of_cover 2 (resultBlock m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [(out_block tLast).1.1, (out_block tLast).2.1]; omega
      | ⟨1, _⟩ =>
        show win0_2.index tLast 1 * win0_2.size 1 ≤ (i 1 : Nat) ∧ (i 1 : Nat) < win0_2.index tLast 1 * win0_2.size 1 + win0_2.xsize (grid0.coords tLast) 1
        rw [(out_block tLast).1.2, (out_block tLast).2.2]; omega⟩

/-- The host lines after the call: the [1, 1] array recast to rank 0, divided by the element count — the mean. -/
theorem tail_eq (c : Dev nD) :
    Pipeline.afterTail₀ cfgs (dats m) 0 (V0 m) [hostOps1] c main_v4
      = (mean (m ((c : Thread nD τ).loc main_arg0)) (m ((c : Thread nD τ).loc main_arg1)) : Buf (Elt Ideal) ((c : Thread nD τ).loc main_v4)) := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v2) = resultBlock m c from
    (Pipeline.withArrays_arr spec0 launch0.win.arr_inj c _ _ 2).trans (final2 m c)]
  rfl

/-- THE KERNEL'S RUN, READ: every weakly fair execution terminates with the result buffer at the mean of the
    arguments and the arguments unchanged. -/
theorem run : θ_run defs (onTc (τ := τ) (main (F := Ideal))) ⟨m, fun _ => 0, ρ⟩ fun r => ∀ c : Dev nD,
      r.2.mem ((c.tc : Thread nD τ).loc main_v4)
        = (mean (m ((c : Thread nD τ).loc main_arg0)) (m ((c : Thread nD τ).loc main_arg1)) : Buf (Elt Ideal) ((c : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference's run: its @main is a straight line of 18 host operations, so every weakly fair execution
  terminates with the result buffer at the operations' composed term of the two arguments, and the arguments
  unchanged. The composed term is named once (`result`): the comparison as 0 / 1 written over a zero array
  (a scatter of the whole array at the empty index list), the weight `|0.3 - m|`, both arguments scaled by
  it, the absolute difference, summed over every axis from zero, divided by the element count 2^25.
-/
import proofs.«175476_j13529146982643_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The comparison's 0 / 1 array as the reference stores it: written over zeros by a scatter whose window is the
    whole array and whose index list is empty. -/
def mask (x y : FVec F S32x1x1024x1024 .f32) : FVec F S32x1x1024x1024 .f32 :=
  Host.scatter scatter_S32x1x1024x1024_S0_S32x1x1024x1024_0123_n_n_0 (fun _ b => b)
    (broadcastInDim S32x1x1024x1024 ![] bcast_S_S32x1x1024x1024 (constant S_ .f32 0x00000000#32))
    (emptyVec S0 hz_S0 : (⟨S0, .i32⟩ : BufTy).Contents (Elt F))
    (uitofp .f32 (cmpf .olt x y))

/-- The weight array `|0.3 - m|`. -/
def weight (x y : FVec F S32x1x1024x1024 .f32) : FVec F S32x1x1024x1024 .f32 :=
  Host.absf (subf (broadcastInDim S32x1x1024x1024 ![] bcast_S_S32x1x1024x1024 (constant S_ .f32 0x3E99999A#32)) (mask x y))

/-- The summand array `|w x - w y|`. -/
def summand (x y : FVec F S32x1x1024x1024 .f32) : FVec F S32x1x1024x1024 .f32 :=
  Host.absf (subf (mulf (weight x y) x) (mulf (weight x y) y))

/-- The mean's tail: a total divided by the element count 2^25 (`0x4C000000`), as the host divides. -/
def meanOf (total : FVec F S_ .f32) : FVec F S_ .f32 :=
  Host.divf total (constant S_ .f32 0x4C000000#32)

/-- The reference's result as a function of its two arguments. -/
def result (x y : FVec F S32x1x1024x1024 .f32) : FVec F S_ .f32 :=
  meanOf (Host.reduceAdd (summand x y) (constant S_ .f32 0x00000000#32) reducesTo_S32x1x1024x1024_S_d0_1_2_3 h_S_)

/-- @main's 18 operations, in order. -/
abbrev ops : List (HloOp τ sig (Elt F)) :=
  [ nullary main_c (emptyVec S0 hz_S0),
    binary main_arg0 main_arg1 main_v0 (cmpf .olt : (⟨S32x1x1024x1024, .f32⟩ : BufTy).Contents (Elt F) → (⟨S32x1x1024x1024, .f32⟩ : BufTy).Contents (Elt F) → (⟨S32x1x1024x1024, .i1⟩ : BufTy).Contents (Elt F)),
    unary main_v0 main_v1 (uitofp .f32 : (⟨S32x1x1024x1024, .i1⟩ : BufTy).Contents (Elt F) → (⟨S32x1x1024x1024, .f32⟩ : BufTy).Contents (Elt F)),
    nullary main_cst (constant S_ .f32 0x00000000#32),
    unary main_cst main_v2 (broadcastInDim S32x1x1024x1024 ![] bcast_S_S32x1x1024x1024 : (⟨S_, .f32⟩ : BufTy).Contents (Elt F) → (⟨S32x1x1024x1024, .f32⟩ : BufTy).Contents (Elt F)),
    ternary main_v2 main_c main_v1 main_v3 ((fun x i u => Host.scatter scatter_S32x1x1024x1024_S0_S32x1x1024x1024_0123_n_n_0 (fun _ b => b) x i u) : (⟨S32x1x1024x1024, .f32⟩ : BufTy).Contents (Elt F) → (⟨S0, .i32⟩ : BufTy).Contents (Elt F) → (⟨S32x1x1024x1024, .f32⟩ : BufTy).Contents (Elt F) → (⟨S32x1x1024x1024, .f32⟩ : BufTy).Contents (Elt F)),
    nullary main_cst_0 (constant S_ .f32 0x3E99999A#32),
    unary main_cst_0 main_v4 (broadcastInDim S32x1x1024x1024 ![] bcast_S_S32x1x1024x1024 : (⟨S_, .f32⟩ : BufTy).Contents (Elt F) → (⟨S32x1x1024x1024, .f32⟩ : BufTy).Contents (Elt F)),
    binary main_v4 main_v3 main_v5 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v5 main_v6 (Host.absf : (⟨S32x1x1024x1024, .f32⟩ : BufTy).Contents (Elt F) → (⟨S32x1x1024x1024, .f32⟩ : BufTy).Contents (Elt F)),
    binary main_v6 main_arg0 main_v7 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v6 main_arg1 main_v8 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v7 main_v8 main_v9 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v9 main_v10 (Host.absf : (⟨S32x1x1024x1024, .f32⟩ : BufTy).Contents (Elt F) → (⟨S32x1x1024x1024, .f32⟩ : BufTy).Contents (Elt F)),
    nullary main_cst_1 (constant S_ .f32 0x00000000#32),
    binary main_v10 main_cst_1 main_v11 ((fun x v => Host.reduceAdd x v reducesTo_S32x1x1024x1024_S_d0_1_2_3 h_S_) : (⟨S32x1x1024x1024, .f32⟩ : BufTy).Contents (Elt F) → (⟨S_, .f32⟩ : BufTy).Contents (Elt F) → (⟨S_, .f32⟩ : BufTy).Contents (Elt F)),
    nullary main_cst_2 (constant S_ .f32 0x4C000000#32),
    binary main_v11 main_cst_2 main_v12 (Host.divf : (⟨S_, .f32⟩ : BufTy).Contents (Elt F) → (⟨S_, .f32⟩ : BufTy).Contents (Elt F) → (⟨S_, .f32⟩ : BufTy).Contents (Elt F)) ]

/-- The printed @main IS the sequence of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., nullary_bufs_sub .., unary_bufs_sub .., ternary_bufs_sub .., nullary_bufs_sub .., unary_bufs_sub .., binary_bufs_sub .., unary_bufs_sub .., binary_bufs_sub .., binary_bufs_sub .., binary_bufs_sub .., unary_bufs_sub .., nullary_bufs_sub .., binary_bufs_sub .., nullary_bufs_sub .., binary_bufs_sub ..⟩

set_option maxHeartbeats 1800000 in
/-- On every device, for any float values, from any memory with zero counters: every weakly fair execution of
    @main terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (by after_results <;> rfl),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefValue

end
-- ==== Proof.RefValue.lean ====
/-
  The reference's result term, read at the ideal values, is the mean of the specification when both arguments
  are finite.

  * The 0 / 1 array. The reference writes the comparison's 0 / 1 values over a zero array by a scatter whose
    update window is the whole array and whose index list is empty: every update index lands on itself
    (start 0 on every axis, the window coordinate the index's own), so the scatter — a left fold over the
    update indices, each replacing the element it lands on — returns the update array.
  * The summand at a position is `|w x - w y|` with `w = |0.3 - m|` (the per-element reference term).
  * The sum over all four axes into a rank-0 result is the initial zero plus the sum over every position.
  * On real arguments each reference term is the kernel's term (the law of the per-element module).
-/
import proofs.«175476_j13529146982643_1_alg».proof.Proof.RefRun
import proofs.«175476_j13529146982643_1_alg».proof.Proof.MeanSpec
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic
open Cert.AsymSpec Cert.MeanSpec

/-! ## A scatter of the whole array returns the updates -/

/-- A scatter whose every update index lands on itself, its body returning the update, returns the update array:
    after folding over a list of update positions the element at `i` is the update's if `i`'s position is in
    the list, the operand's otherwise; and every position is in the full list. -/
theorem foldl_overwrite {α : Type} {s : Shape} (upd : s.Idx → α)
    (f : (s.Idx → α) → Fin s.numel → s.Idx → α)
    (hf : ∀ r n i', f r n i' = if i' = s.rowMajor.symm n then upd (s.rowMajor.symm n) else r i') :
    ∀ (L : List (Fin s.numel)) (r : s.Idx → α) (i' : s.Idx),
      (L.foldl f r) i' = if s.rowMajor i' ∈ L then upd i' else r i' := by
  intro L
  induction L with
  | nil => intro r i'; simp
  | cons n L ih =>
    intro r i'
    rw [List.foldl_cons, ih, hf]
    by_cases hL : s.rowMajor i' ∈ L
    · simp [hL]
    · by_cases hn : i' = s.rowMajor.symm n
      · subst hn; simp
      · have hne : ¬ s.rowMajor i' = n := fun h => hn (by rw [← h]; simp)
        simp [hL, hn, hne]

theorem scatter_whole {α : Type} {s si : Shape} {w : ℕ} (d : ScatterDims s si s) (x : s.Idx → α) (idx : IVec si w)
    (upd : s.Idx → α) (hid : ∀ j, d.resultIdx? j idx = some j) :
    Host.scatter d (fun _ b => b) x idx upd = upd := by
  unfold Host.scatter
  funext i'
  refine (foldl_overwrite upd _ (fun r n i' => ?_) _ x i').trans ?_
  · rw [hid]
  · simp [List.mem_finRange]

/-- On every axis the reference's scatter starts at 0: no axis is a scattered one. -/
theorem start_eq (j : S32x1x1024x1024.Idx) (idx : IVec S0 32) (a : Fin 4) :
    scatter_S32x1x1024x1024_S0_S32x1x1024x1024_0123_n_n_0.start j idx a = 0 := by
  unfold ScatterDims.start
  exact dif_neg (by simp [scatter_S32x1x1024x1024_S0_S32x1x1024x1024_0123_n_n_0])

/-- and the window coordinate on an axis is the update index's own coordinate: all four axes are window axes. -/
theorem window_eq (j : S32x1x1024x1024.Idx) (a : Fin 4) :
    scatter_S32x1x1024x1024_S0_S32x1x1024x1024_0123_n_n_0.window j a = (j a).val := by
  fin_cases a <;> rfl

/-- So every update index lands on itself. -/
theorem lands_on_itself (j : S32x1x1024x1024.Idx) (idx : IVec S0 32) :
    scatter_S32x1x1024x1024_S0_S32x1x1024x1024_0123_n_n_0.resultIdx? j idx = some j := by
  unfold ScatterDims.resultIdx?
  have hsw : ∀ a : Fin 4, scatter_S32x1x1024x1024_S0_S32x1x1024x1024_0123_n_n_0.start j idx a
      + (scatter_S32x1x1024x1024_S0_S32x1x1024x1024_0123_n_n_0.window j a : Int) = ((j a).val : Int) := fun a => by
    rw [start_eq, window_eq, zero_add]
  rw [dif_pos (fun a => by
    rw [hsw a]
    exact ⟨Int.natCast_nonneg _, by exact_mod_cast (j a).isLt⟩)]
  congr 1
  funext a
  apply Fin.ext
  show (scatter_S32x1x1024x1024_S0_S32x1x1024x1024_0123_n_n_0.start j idx a
      + (scatter_S32x1x1024x1024_S0_S32x1x1024x1024_0123_n_n_0.window j a : Int)).toNat = (j a).val
  rw [hsw a, Int.toNat_natCast]

/-- The 0 / 1 array the reference stores is the comparison converted, itself. -/
theorem mask_eq (x y : FVec Ideal S32x1x1024x1024 .f32) : mask x y = uitofp .f32 (cmpf .olt x y) :=
  scatter_whole _ _ _ _ (fun j => lands_on_itself j _)

/-! ## The summand and the sum -/

/-- The summand at a position is the reference's per-element term of the arguments there. -/
theorem summand_apply (x y : FVec Ideal S32x1x1024x1024 .f32) (j : S32x1x1024x1024.Idx) :
    summand x y j = refTerm (x j) (y j) := by
  unfold summand weight
  rw [mask_eq]
  rfl

/-- The reference's result is the initial zero plus the sum of its terms over every position, divided by the count. -/
theorem result_eq_sum (x y : FVec Ideal S32x1x1024x1024 .f32) :
    result x y = fun _ => Ideal.div (∑ j : S32x1x1024x1024.Idx, refTerm (x j) (y j)) (Ideal.ofBits .f32 0x4C000000#32) := by
  unfold result meanOf
  funext i
  show Ideal.div (Host.reduceAdd (summand x y) (constant S_ .f32 0x00000000#32) reducesTo_S32x1x1024x1024_S_d0_1_2_3 h_S_ i) (Ideal.ofBits .f32 0x4C000000#32) = _
  refine congrArg (fun z => Ideal.div z (Ideal.ofBits .f32 0x4C000000#32)) ?_
  generalize hy : summand x y = y0
  simp only [Host.reduceAdd, Ideal.hostReduceAdd_def]
  refine (Ideal.hostReduceAdd_total reducesTo_S32x1x1024x1024_S_d0_1_2_3 (fun b => b.elim0) y0 _ i).trans ?_
  subst hy
  show Ideal.ofBits .f32 0x00000000#32 + _ = _
  rw [Ideal.ofBits_zero_f32, zero_add]
  exact Finset.sum_congr rfl fun j _ => summand_apply x y j

/-- On finite arguments the reference computes the specification's mean. -/
theorem result_eq_mean (x y : FVec Ideal S32x1x1024x1024 .f32)
    (hx : ∀ j, ∃ a : ℝ, x j = (a : EReal)) (hy : ∀ j, ∃ b : ℝ, y j = (b : EReal)) :
    result x y = mean x y := by
  rw [result_eq_sum]
  funext i
  show Ideal.div _ (Ideal.ofBits .f32 0x4C000000#32) = Ideal.div (total x y) (Ideal.ofBits .f32 0x4C000000#32)
  refine congrArg (fun z => Ideal.div z (Ideal.ofBits .f32 0x4C000000#32)) ?_
  refine Finset.sum_congr rfl fun j _ => ?_
  obtain ⟨a, ha⟩ := hx j
  obtain ⟨b, hb⟩ := hy j
  rw [ha, hb]
  exact refTerm_eq_term a b

end Cert.ReferenceIdeal.RefValue

end
-- ==== Proof.Finite.lean ====
/-
  The precondition says every entry of both arguments is finite: it is the conjunction of two `all`
  reductions of `|v| < +inf` (the pattern `0x7F800000` is `+inf`). An extended real whose absolute value
  `max v (-v)` is below `+inf` is neither infinity, so it is a real number.
-/
import proofs.«175476_j13529146982643_1_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

/-- A rank-0 array has one position. -/
instance : Subsingleton S_.Idx := ⟨fun a b => funext fun d => d.elim0⟩

/-- The pattern `0x7F800000` denotes `+inf`. -/
theorem inf_val : Ideal.ofBits .f32 0x7F800000#32 = ⊤ := by
  simp [Ideal.ofBits, Ideal.ieee]

/-- An extended real whose absolute value compares below `+inf` is a real. -/
theorem real_of_abs_lt (x : EReal)
    (h : Ideal.cmp .olt (max x (-x)) (Ideal.ofBits .f32 0x7F800000#32) = 1#1) : ∃ a : ℝ, x = (a : EReal) := by
  rw [inf_val] at h
  induction x using EReal.rec with
  | bot => exact absurd h (by simp [Ideal.cmp])
  | coe a => exact ⟨a, rfl⟩
  | top => exact absurd h (by simp [Ideal.cmp])

variable [Facts]

/-- Under the precondition both arguments hold real numbers everywhere. -/
theorem real_of_pre (x y : FVec Ideal S32x1x1024x1024 .f32) (h : fn (F := Ideal) x y = fun _ => 1#1) :
    (∀ j, ∃ a : ℝ, x j = (a : EReal)) ∧ (∀ j, ∃ b : ℝ, y j = (b : EReal)) := by
  have h0 := congrFun h ValueIdx.ix0
  dsimp only [fn] at h0
  obtain ⟨hx, hy⟩ := IntOp.andi_eq_one.mp h0
  refine ⟨fun j => real_of_abs_lt (x j) ?_, fun j => real_of_abs_lt (y j) ?_⟩
  · exact Host.reduce_andi_all _ _ _ _ _ hx j
  · exact Host.reduce_andi_all _ _ _ _ _ hy j

end Cert.Pre_finite_inputs.Finite

end
-- ==== Proof.lean ====
/-
  The asymmetric weighted L1 mean of two [32, 1, 1024, 1024] arrays: the kernel and its reference agree on the
  extended reals when the inputs are finite.

  Both compute `(∑ over all 2^25 positions of w · |x − y|) / 2^25` with `w` the heavy weight where `x < y` and
  the light weight elsewhere.

  * The kernel sums block by block: the arrays are reshaped to [32768, 1024] and cut into 64 blocks of 512 rows;
    each grid point adds its block's sum (lane sums, then the sum of those) to a [1, 1] accumulator that is zeroed
    at the first point, carried across the grid and written back once, after the last point; the host divides by
    the element count. The blocks partition the positions and addition of extended reals is commutative and
    associative, so the accumulator ends at the total over all positions.
  * The reference forms the weight as `|light − m|` (`m` the comparison as 0 / 1), scales both arguments by it
    and sums `|w x − w y|` over every axis at once, then divides by the same count.
  * The heavy weight is exactly `1 − light` (both dyadic), and for a weight `w ≥ 0` and REAL `x`, `y`,
    `|w x − w y| = w |x − y|`. That law fails at the infinities, and the precondition (every entry finite)
    is what supplies real entries.

  The three frames: the two kernels' are their generated frame runs; the reference's is its run (a straight
  line of host operations) with the result dropped. The idealization rewrote nothing, so `preserves` is trivial.
-/
import proofs.«175476_j13529146982643_1_alg».proof.Defs
import proofs.«175476_j13529146982643_1_alg».proof.Proof.Gen.Kernel
import proofs.«175476_j13529146982643_1_alg».proof.Proof.Gen.Kernel.Skeleton
import proofs.«175476_j13529146982643_1_alg».proof.Proof.Gen.Kernel.Launch
import proofs.«175476_j13529146982643_1_alg».proof.Proof.Gen.Kernel.Points
import proofs.«175476_j13529146982643_1_alg».proof.Proof.Gen.Kernel.Frame
import proofs.«175476_j13529146982643_1_alg».proof.Proof.Gen.KernelIdeal
import proofs.«175476_j13529146982643_1_alg».proof.Proof.Gen.KernelIdeal.Skeleton
import proofs.«175476_j13529146982643_1_alg».proof.Proof.Gen.KernelIdeal.Launch
import proofs.«175476_j13529146982643_1_alg».proof.Proof.Gen.KernelIdeal.Points
import proofs.«175476_j13529146982643_1_alg».proof.Proof.Gen.KernelIdeal.Frame
import proofs.«175476_j13529146982643_1_alg».proof.Proof.Gen.ReferenceIdeal
import proofs.«175476_j13529146982643_1_alg».proof.Proof.Gen.Pre_finite_inputs
import proofs.«175476_j13529146982643_1_alg».proof.Proof.KernelValue
import proofs.«175476_j13529146982643_1_alg».proof.Proof.RefValue
import proofs.«175476_j13529146982643_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame run. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the finite arguments, the kernel's result buffer ends at the mean of the
    specification (its run read through the accumulator) and so does the reference's (its summands are the
    kernel's terms on real entries). -/
theorem algebraic : Cert.algebraic_KernelIdeal_ReferenceIdeal := by
  intro m ρ m' ρ' hpre hagree
  refine ⟨fun c => Cert.MeanSpec.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  obtain ⟨hx, hy⟩ := Cert.Pre_finite_inputs.Finite.real_of_pre _ _ (hpre c)
  exact Cert.ReferenceIdeal.RefValue.result_eq_mean _ _ hx hy

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
